-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64 .f32) (main_arg6 : FVec F S64 .f32) (main_arg7 : FVec F S64x64 .f32) (main_arg8 : FVec F S64 .f32) (main_arg9 : FVec F S64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S800000 .f32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S5000x64 : Shape := ⟨2, ![5000, 64]⟩
abbrev S800000x64 : Shape := ⟨2, ![800000, 64]⟩
abbrev S50000x1 : Shape := ⟨2, ![50000, 1]⟩
abbrev S1x64 : Shape := ⟨2, ![1, 64]⟩

abbrev nBuf : Space → Nat
  | .hbm => 135
  | .vmem => 28
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S50000x64, .f32⟩
  | 44 => ⟨S800000x1, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S800000x64, .f32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S_, .f32⟩
  | 61 => ⟨S50000, .f32⟩
  | 62 => ⟨S50000, .f32⟩
  | 63 => ⟨S50000x1, .f32⟩
  | 64 => ⟨S50000x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S64, .f32⟩
  | 72 => ⟨S_, .f32⟩
  | 73 => ⟨S64, .f32⟩
  | 74 => ⟨S64, .f32⟩
  | 75 => ⟨S1x64, .f32⟩
  | 76 => ⟨S50000x64, .f32⟩
  | 77 => ⟨S50000x64, .f32⟩
  | 78 => ⟨S50000x64, .f32⟩
  | 79 => ⟨S_, .f32⟩
  | 80 => ⟨S64, .f32⟩
  | 81 => ⟨S_, .f32⟩
  | 82 => ⟨S64, .f32⟩
  | 83 => ⟨S64, .f32⟩
  | 84 => ⟨S1x64, .f32⟩
  | 85 => ⟨S1x64, .f32⟩
  | 86 => ⟨S1x64, .f32⟩
  | 87 => ⟨S1x64, .f32⟩
  | 88 => ⟨S50000x64, .f32⟩
  | 89 => ⟨S50000x64, .f32⟩
  | 90 => ⟨S800000x1, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x64, .f32⟩
  | 100 => ⟨S800000x64, .f32⟩
  | 101 => ⟨S800000x64, .f32⟩
  | 102 => ⟨S_, .f32⟩
  | 103 => ⟨S50000x64, .f32⟩
  | 104 => ⟨S800000x1, .i32⟩
  | 105 => ⟨S50000x64, .f32⟩
  | 106 => ⟨S_, .f32⟩
  | 107 => ⟨S50000, .f32⟩
  | 108 => ⟨S50000, .f32⟩
  | 109 => ⟨S50000x1, .f32⟩
  | 110 => ⟨S50000x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S64, .f32⟩
  | 118 => ⟨S_, .f32⟩
  | 119 => ⟨S64, .f32⟩
  | 120 => ⟨S64, .f32⟩
  | 121 => ⟨S1x64, .f32⟩
  | 122 => ⟨S50000x64, .f32⟩
  | 123 => ⟨S50000x64, .f32⟩
  | 124 => ⟨S50000x64, .f32⟩
  | 125 => ⟨S_, .f32⟩
  | 126 => ⟨S64, .f32⟩
  | 127 => ⟨S_, .f32⟩
  | _ => ⟨S50000x64, .f32⟩

abbrev hbmTy0_1 (i : Nat) : BufTy := match i % 128 with
  | 0 => ⟨S64, .f32⟩
  | 1 => ⟨S64, .f32⟩
  | 2 => ⟨S1x64, .f32⟩
  | 3 => ⟨S1x64, .f32⟩
  | 4 => ⟨S1x64, .f32⟩
  | 5 => ⟨S1x64, .f32⟩
  | 6 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_16 : Ref sig .tc := ⟨.hbm, 116, rfl⟩
abbrev main_v87 : Ref sig .tc := ⟨.hbm, 117, rfl⟩
abbrev main_cst_17 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_cst_19 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc3_sem6_0 : DmaSem sig := 26
abbrev cc3_sem6_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v86) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v100) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg0) S5000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v101) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩

abbrev nBuf : Space → Nat
  | .hbm => 192
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S50000x64, .f32⟩
  | 44 => ⟨S800000x1, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S800000x64, .f32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S_, .f32⟩
  | 61 => ⟨S50000, .f32⟩
  | 62 => ⟨S50000, .f32⟩
  | 63 => ⟨S50000x1, .f32⟩
  | 64 => ⟨S50000x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S64, .f32⟩
  | 72 => ⟨S_, .f32⟩
  | 73 => ⟨S64, .f32⟩
  | 74 => ⟨S64, .f32⟩
  | 75 => ⟨S1x64, .f32⟩
  | 76 => ⟨S50000x64, .f32⟩
  | 77 => ⟨S50000x64, .f32⟩
  | 78 => ⟨S50000x64, .f32⟩
  | 79 => ⟨S_, .f32⟩
  | 80 => ⟨S64, .f32⟩
  | 81 => ⟨S_, .f32⟩
  | 82 => ⟨S64, .f32⟩
  | 83 => ⟨S64, .f32⟩
  | 84 => ⟨S1x64, .f32⟩
  | 85 => ⟨S50000x64, .f32⟩
  | 86 => ⟨S50000x64, .f32⟩
  | 87 => ⟨S_, .f32⟩
  | 88 => ⟨S64, .f32⟩
  | 89 => ⟨S64, .f32⟩
  | 90 => ⟨S64, .f32⟩
  | 91 => ⟨S1x64, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S1x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S_, .f32⟩
  | 104 => ⟨S50000, .f32⟩
  | 105 => ⟨S800000x1, .i32⟩
  | 106 => ⟨S50000, .f32⟩
  | 107 => ⟨S_, .f32⟩
  | 108 => ⟨S50000, .f32⟩
  | 109 => ⟨S50000, .f32⟩
  | 110 => ⟨S50000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000, .f32⟩
  | 120 => ⟨S800000, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x64, .f32⟩

abbrev hbmTy0_1 (i : Nat) : BufTy := match i % 128 with
  | 0 => ⟨S800000x1, .i32⟩
  | 1 => ⟨S800000, .f32⟩
  | 2 => ⟨S800000, .f32⟩
  | 3 => ⟨S50000x64, .f32⟩
  | 4 => ⟨S800000x1, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S800000x64, .f32⟩
  | 15 => ⟨S800000x64, .f32⟩
  | 16 => ⟨S_, .f32⟩
  | 17 => ⟨S50000x64, .f32⟩
  | 18 => ⟨S800000x1, .i32⟩
  | 19 => ⟨S50000x64, .f32⟩
  | 20 => ⟨S_, .f32⟩
  | 21 => ⟨S50000, .f32⟩
  | 22 => ⟨S50000, .f32⟩
  | 23 => ⟨S50000x1, .f32⟩
  | 24 => ⟨S50000x64, .f32⟩
  | 25 => ⟨S50000x64, .f32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S64, .f32⟩
  | 32 => ⟨S_, .f32⟩
  | 33 => ⟨S64, .f32⟩
  | 34 => ⟨S64, .f32⟩
  | 35 => ⟨S1x64, .f32⟩
  | 36 => ⟨S50000x64, .f32⟩
  | 37 => ⟨S50000x64, .f32⟩
  | 38 => ⟨S50000x64, .f32⟩
  | 39 => ⟨S_, .f32⟩
  | 40 => ⟨S64, .f32⟩
  | 41 => ⟨S_, .f32⟩
  | 42 => ⟨S64, .f32⟩
  | 43 => ⟨S64, .f32⟩
  | 44 => ⟨S1x64, .f32⟩
  | 45 => ⟨S50000x64, .f32⟩
  | 46 => ⟨S50000x64, .f32⟩
  | 47 => ⟨S_, .f32⟩
  | 48 => ⟨S64, .f32⟩
  | 49 => ⟨S64, .f32⟩
  | 50 => ⟨S64, .f32⟩
  | 51 => ⟨S1x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S1x64, .f32⟩
  | 58 => ⟨S50000x64, .f32⟩
  | 59 => ⟨S50000x64, .f32⟩
  | 60 => ⟨S50000x64, .f32⟩
  | 61 => ⟨S_, .f32⟩
  | 62 => ⟨S50000x64, .f32⟩
  | 63 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_call0_cst : Ref sig .tc := ⟨.hbm, 100, rfl⟩
abbrev main_call0_v0 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_15 : Ref sig .tc := ⟨.hbm, 111, rfl⟩
abbrev main_v81 : Ref sig .tc := ⟨.hbm, 112, rfl⟩
abbrev main_v82 : Ref sig .tc := ⟨.hbm, 113, rfl⟩
abbrev main_c_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_17 : Ref sig .tc := ⟨.hbm, 121, rfl⟩
abbrev main_v89 : Ref sig .tc := ⟨.hbm, 122, rfl⟩
abbrev main_v90 : Ref sig .tc := ⟨.hbm, 123, rfl⟩
abbrev main_c_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_19 : Ref sig .tc := ⟨.hbm, 133, rfl⟩
abbrev main_v99 : Ref sig .tc := ⟨.hbm, 134, rfl⟩
abbrev main_v100 : Ref sig .tc := ⟨.hbm, 135, rfl⟩
abbrev main_c_20 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_21 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_22 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_23 : Ref sig .tc := ⟨.hbm, 158, rfl⟩
abbrev main_v120 : Ref sig .tc := ⟨.hbm, 159, rfl⟩
abbrev main_cst_24 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_25 : Ref sig .tc := ⟨.hbm, 167, rfl⟩
abbrev main_v127 : Ref sig .tc := ⟨.hbm, 168, rfl⟩
abbrev main_cst_26 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_27 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_call1_cst : Ref sig .tc := ⟨.hbm, 189, rfl⟩
abbrev main_call1_v0 : Ref sig .tc := ⟨.hbm, 190, rfl⟩
abbrev main_v146 : Ref sig .tc := ⟨.hbm, 191, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.WholeRun.lean ====
/-
  The idealized kernel's whole program, run from any launch memory: two graph convolutions, each a dense
  product computed in row blocks followed by a gather / scatter-add over the edges, a batch normalisation
  whose affine map and rectifier are again computed in row blocks, the second one after adding the input
  back. Every weakly fair execution terminates without a fault, the eleven argument arrays end as launched,
  and the result array ends holding the last boundary's contents: the fold of the host stretches and of the
  four row-blocked stages' write-backs over the launch memory.
-/
import proofs.«112059_j75505525064552_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program with its result named: the result array ends at the contents of the last
    boundary of the fold, and each argument array is unchanged. -/
theorem run : θ_run defs (onTc (τ := τ) (main (F := F))) ⟨m, fun _ => 0, ρ⟩ (fun r => ∀ c : Dev nD,
      r.2.mem ((c.tc : Thread nD τ).loc main_v101) = W7 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v101 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.WholeRun

end
-- ==== Proof.Spec.lean ====
/-
  The two row-wise maps of the block, as functions of whole arrays over the extended reals.

  A node's feature row is normalised feature by feature: with per-feature mean `μ`, variance `v`, scale `γ` and
  shift `β`, entry `(n, f)` of the hidden array `h` goes to

      max ( ((h(n,f) − μ(f)) · (v(f) + ε)^(-1/2)) · γ(f) + β(f) , 0 ),

  and, in the block's last stage, the input entry `x(n,f)` is added before the maximum with zero is taken. The small
  constant `ε` is the single-precision word both programs spell; it is never evaluated.
-/
import Idealize.ShloMosaic.PureOps.Ideal
import Idealize.ShloMosaic.Lib.ValueIdx

noncomputable section

namespace Cert.GcnSpec

open Idealize.ShloMosaic

/-- Nodes by features. -/
abbrev SN : Shape := ⟨2, ![50000, 64]⟩
/-- One value per feature. -/
abbrev SF : Shape := ⟨1, ![64]⟩

/-- One value per feature, laid out as a row. -/
abbrev SR : Shape := ⟨2, ![1, 64]⟩

/-- A row [1, 64] read as the per-feature vector of its entries. -/
def row (a : SR.Idx → EReal) : SF.Idx → EReal := fun j =>
  a (ValueIdx.ix2 (0 : Fin 1) (⟨(j 0).val, (j 0).isLt⟩ : Fin 64))

/-- The feature of a matrix entry, as an index of a per-feature vector. -/
def col (i : SN.Idx) : SF.Idx := fun a => match a with
  | ⟨0, _⟩ => ⟨(i 1).val, (i 1).isLt⟩

/-- The variance offset, as the word both programs carry. -/
def eps : EReal := Ideal.ofBits .f32 0x3727C5AC#32

/-- The normalised, scaled and shifted entry, before any rectifier. -/
def affine (h : SN.Idx → EReal) (mean var gamma beta : SF.Idx → EReal) (i : SN.Idx) : EReal :=
  ((h i - mean (col i)) * Ideal.rsqrt (var (col i) + eps)) * gamma (col i) + beta (col i)

/-- Batch normalisation with given statistics followed by the rectifier. -/
def bnRelu (h : SN.Idx → EReal) (mean var gamma beta : SF.Idx → EReal) : SN.Idx → EReal := fun i =>
  max (affine h mean var gamma beta i) (Ideal.ofBits .f32 0x00000000#32)

/-- Batch normalisation with given statistics, the residual added, then the rectifier. -/
def bnResRelu (h : SN.Idx → EReal) (mean var gamma beta : SF.Idx → EReal) (res : SN.Idx → EReal) : SN.Idx → EReal := fun i =>
  max (affine h mean var gamma beta i + res i) (Ideal.ofBits .f32 0x00000000#32)

end Cert.GcnSpec

end
-- ==== Proof.LibRowCast.lean ====
/-
  A vector of length n and the row [1, n] that holds the same elements: a shape cast between the two keeps every
  element's row-major position, which is j for the vector's element j and 0 · n + j for the row's element (0, j).
  So the cast to a row reads the vector at the column coordinate, and the cast back reads the row at (0, j).
-/
import Idealize.ShloMosaic.Lib.ValueIdx
import Idealize.ShloMosaic.Lib.Pipeline.Value
import Idealize.ShloMosaic.Lib.ValueLayout

namespace Idealize.ShloMosaic.RowCast

open Idealize.ShloMosaic Idealize.ShloMosaic.ValueIdx

/-- A vector of length n cast to a row [1, n] reads, at (u, j), the vector at j, whatever the unit coordinate u:
    the row-major positions are u · n + j with u = 0, and j. -/
theorem shapeCast_row_apply {α : Type} {n : ℕ} (x : (⟨1, ![n]⟩ : Shape).Idx → α)
    (h : (⟨1, ![n]⟩ : Shape).ShapeCasts (⟨2, ![1, n]⟩ : Shape)) (u : Fin 1) (j : Fin n) :
    shapeCast (⟨2, ![1, n]⟩ : Shape) x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

/-- A row [1, n] cast to a vector of length n reads, at j, the row at (0, j): the row-major positions are
    0 · n + j and j. -/
theorem shapeCast_unrow_apply {α : Type} {n : ℕ} (x : (⟨2, ![1, n]⟩ : Shape).Idx → α)
    (h : (⟨2, ![1, n]⟩ : Shape).ShapeCasts (⟨1, ![n]⟩ : Shape)) (j : Fin n) :
    shapeCast (⟨1, ![n]⟩ : Shape) x h (ix1 j) = x (ix2 (0 : Fin 1) j) :=
  shapeCast_apply x h _ _ (by
    rw [Shape.rowMajor_val_two, Shape.rowMajor_val_one]
    show (0 : ℕ) * n + j.val = j.val
    rw [Nat.zero_mul, Nat.zero_add])

end Idealize.ShloMosaic.RowCast
-- ==== Proof.StageLin.lean ====
/-
  The two dense products of the block, each computed in ten row blocks of 5000 rows.

  A stage multiplies a [50000, 64] array `x` by a [64, 64] array `w`: entry (r, f) of the product is the sum over k of
  x(r, k) · w(k, f). The stage's grid has ten points; point t takes rows 5000 t … 5000 t + 4999 of `x` and all of `w`,
  multiplies them into an accumulator that starts at zero, and writes the 5000 rows of the result back to rows
  5000 t … 5000 t + 4999 of the product array. Over the extended reals the narrowing of the two blocks before the
  multiplication is the identity, so the block written at point t is exactly the rows of the whole product, and the
  ten blocks tile the array.
-/
import proofs.«112059_j75505525064552_1_alg».proof.Proof.Gen.KernelIdeal.Frame
import proofs.«112059_j75505525064552_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.StageLin

open Cert.KernelIdeal Cert.KernelIdeal.Gen
open Idealize.ShloMosaic Idealize.ShloMosaic.TcCoe Idealize.SL.Sem
open Idealize.ShloMosaic.Pipeline (Dat)
open Idealize.ShloMosaic.ValueIdx (ix2 eq_ix2)
open scoped BigOperators

/-- The zero offsets of a whole-block access, spelt as a constant function. -/
theorem zero_offsets : (![0, 0] : Fin 2 → Nat) = fun _ => 0 := funext fun a => by fin_cases a <;> rfl

/-! ## The contraction: which entries of the two blocks the product's entry (p, q) multiplies -/

/-- The left factor is read in the product entry's row. -/
theorem lhs_row (i : S5000x64.Idx) (s : dot_S5000x64_S64x64_S5000x64_1_0_0_1_n_n.contr.Idx) : (dot_S5000x64_S64x64_S5000x64_1_0_0_1_n_n.lhsIdx i s 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- The left factor is read in the column the contraction index names. -/
theorem lhs_col (i : S5000x64.Idx) (s : dot_S5000x64_S64x64_S5000x64_1_0_0_1_n_n.contr.Idx) : (dot_S5000x64_S64x64_S5000x64_1_0_0_1_n_n.lhsIdx i s 1).val = (s ⟨0, by decide⟩).val :=
  dot_S5000x64_S64x64_S5000x64_1_0_0_1_n_n.lhsIdx_val_of_single rfl i s

/-- The right factor is read in the row the contraction index names. -/
theorem rhs_row (i : S5000x64.Idx) (s : dot_S5000x64_S64x64_S5000x64_1_0_0_1_n_n.contr.Idx) : (dot_S5000x64_S64x64_S5000x64_1_0_0_1_n_n.rhsIdx i s 0).val = (s ⟨0, by decide⟩).val :=
  dot_S5000x64_S64x64_S5000x64_1_0_0_1_n_n.rhsIdx_val_of_single rfl i s

/-- The right factor is read in the product entry's column. -/
theorem rhs_col (i : S5000x64.Idx) (s : dot_S5000x64_S64x64_S5000x64_1_0_0_1_n_n.contr.Idx) : (dot_S5000x64_S64x64_S5000x64_1_0_0_1_n_n.rhsIdx i s 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- For the product's entry (p, q) and the k-th value of the contraction index, the left factor's entry is (p, k). -/
theorem lhs_index (p : Fin 5000) (q k : Fin 64) :
    dot_S5000x64_S64x64_S5000x64_1_0_0_1_n_n.lhsIdx (ix2 p q) ((ValueIdx.contrEquiv1 dot_S5000x64_S64x64_S5000x64_1_0_0_1_n_n 64 rfl rfl).symm k) = ix2 p k :=
  funext fun a => Fin.ext (by
    have hk := ValueIdx.contrEquiv1_symm_val dot_S5000x64_S64x64_S5000x64_1_0_0_1_n_n 64 rfl rfl k
    match a with
    | ⟨0, _⟩ => exact lhs_row _ _
    | ⟨1, _⟩ => exact (lhs_col _ _).trans hk)

/-- For the product's entry (p, q) and the k-th value of the contraction index, the right factor's entry is (k, q). -/
theorem rhs_index (p : Fin 5000) (q k : Fin 64) :
    dot_S5000x64_S64x64_S5000x64_1_0_0_1_n_n.rhsIdx (ix2 p q) ((ValueIdx.contrEquiv1 dot_S5000x64_S64x64_S5000x64_1_0_0_1_n_n 64 rfl rfl).symm k) = ix2 k q :=
  funext fun a => Fin.ext (by
    have hk := ValueIdx.contrEquiv1_symm_val dot_S5000x64_S64x64_S5000x64_1_0_0_1_n_n 64 rfl rfl k
    match a with
    | ⟨0, _⟩ => exact (rhs_row _ _).trans hk
    | ⟨1, _⟩ => exact rhs_col _ _)

/-! ## The product written by region 0: rows of `main_arg0` times `main_arg3` -/

/-- Over the grid's ten points: the row block of the left factor and of the product is the point's number, in column block 0;
    the right factor's single block stays at (0, 0). -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Each of the ten row blocks of the product belongs to some point of the grid. -/
theorem block_onto0 : ∀ b : Fin 10, ∃ t : Fin cfg0.N, win0_2.index t = ![b.val, 0] :=
  (by decide +kernel : ∀ b : Fin 10, ∃ t : Fin grid0.N, win0_2.index t = ![b.val, 0])

/-- Entry (p, q) of the block computed at a point is the sum over k of entry (p, k) of the left block times entry (k, q)
    of the right block: the narrowing of both blocks is the identity on the extended reals, and the accumulator starts at zero. -/
theorem product_block0 (x0 : Vec Ideal S5000x64 .f32) (x1 : Vec Ideal S64x64 .f32) (p : Fin 5000) (q : Fin 64) :
    Gen.k0_pay1 (F := Ideal) x0 x1 (ix2 p q) = ∑ k : Fin 64, x0 (ix2 p k) * x1 (ix2 k q) := by
  unfold Gen.k0_pay1
  refine (Ideal.matmul_constant_zero_apply dot_S5000x64_S64x64_S5000x64_1_0_0_1_n_n none _ _ (ix2 p q)).trans ?_
  rw [← Equiv.sum_comp (ValueIdx.contrEquiv1 dot_S5000x64_S64x64_S5000x64_1_0_0_1_n_n 64 rfl rfl).symm]
  refine Finset.sum_congr rfl fun k _ => ?_
  rw [lhs_index p q k, rhs_index p q k]
  rfl

/-- Entry (p, k) of the left factor's block at point `t` is the array's entry in row 5000 t + p, column k: the row and
    column the reference's sum reads for the product's entry in row 5000 t + p. -/
theorem left_block0 (V : (c : Dev nD) → (b : Ref sig .tc) → Buf (Elt Ideal) ((c : Thread nD τ).loc b)) (c : Dev nD)
    (t : Fin cfg0.N) (p : Fin 5000) (q k : Fin 64) :
    (Gen.iblk0 (F := Ideal) V c 0 t : Vec Ideal S5000x64 .f32) (ix2 p k)
      = (V c main_arg0 : S50000x64.Idx → Elt Ideal .f32)
          (Cert.ReferenceIdeal.Read.lidx_main_v26 (((cfg0.win 2).blk t).view.emb (ix2 p q)) k) := by
  obtain ⟨e0, e1, e2, e3, e4, e5⟩ := block_index0 t
  show (V c main_arg0 : S50000x64.Idx → Elt Ideal .f32) (((cfg0.win 0).blk t).view.emb (ix2 p k)) = _
  congr 1
  funext a
  apply Fin.ext
  match a with
  | ⟨0, _⟩ => show win0_0.index t (0 : Fin 2) * 5000 + 1 * p.val = win0_2.index t (0 : Fin 2) * 5000 + 1 * p.val; omega
  | ⟨1, _⟩ => show win0_0.index t (1 : Fin 2) * 64 + 1 * k.val = k.val; omega

/-- Entry (k, q) of the right factor's block at any point is the array's entry (k, q): its one block is the whole array,
    and the product's entry in column q reads column q. -/
theorem right_block0 (V : (c : Dev nD) → (b : Ref sig .tc) → Buf (Elt Ideal) ((c : Thread nD τ).loc b)) (c : Dev nD)
    (t : Fin cfg0.N) (p : Fin 5000) (q k : Fin 64) :
    (Gen.iblk0 (F := Ideal) V c 1 t : Vec Ideal S64x64 .f32) (ix2 k q)
      = (V c main_arg3 : S64x64.Idx → Elt Ideal .f32)
          (Cert.ReferenceIdeal.Read.ridx_main_v26 (((cfg0.win 2).blk t).view.emb (ix2 p q)) k) := by
  obtain ⟨e0, e1, e2, e3, e4, e5⟩ := block_index0 t
  show (V c main_arg3 : S64x64.Idx → Elt Ideal .f32) (((cfg0.win 1).blk t).view.emb (ix2 k q)) = _
  congr 1
  funext a
  apply Fin.ext
  match a with
  | ⟨0, _⟩ => show win0_1.index t (0 : Fin 2) * 64 + 1 * k.val = k.val; omega
  | ⟨1, _⟩ => show win0_1.index t (1 : Fin 2) * 64 + 1 * q.val = win0_2.index t (1 : Fin 2) * 64 + 1 * q.val; omega

/-- An entry of the block computed at point `t` is the whole-array product's entry at that entry's place in the array. -/
theorem block_entry0 (V : (c : Dev nD) → (b : Ref sig .tc) → Buf (Elt Ideal) ((c : Thread nD τ).loc b)) (c : Dev nD)
    (t : Fin cfg0.N) (j : S5000x64.Idx) :
    Gen.k0_pay1 (F := Ideal) (Gen.iblk0 (F := Ideal) V c 0 t) (Gen.iblk0 (F := Ideal) V c 1 t) j
      = Cert.ReferenceIdeal.Read.val_main_v26 (F := Ideal) (V c main_arg0) (V c main_arg3) (((cfg0.win 2).blk t).view.emb j) := by
  obtain ⟨p, q, rfl⟩ : ∃ (p : Fin 5000) (q : Fin 64), j = ix2 p q := ⟨j 0, j 1, eq_ix2 j⟩
  refine (product_block0 (Gen.iblk0 (F := Ideal) V c 0 t) (Gen.iblk0 (F := Ideal) V c 1 t) p q).trans ?_
  rw [Cert.ReferenceIdeal.Read.val_main_v26_apply]
  refine Finset.sum_congr rfl fun k _ => ?_
  rw [left_block0 V c t p q k, right_block0 V c t p q k]

/-- What point `t` writes back is block `t` of the whole-array product of the two arrays as the region finds them. -/
theorem flushed_block0 (V : (c : Dev nD) → (b : Ref sig .tc) → Buf (Elt Ideal) ((c : Thread nD τ).loc b)) (c : Dev nD)
    (t : Fin cfg0.N) :
    (Gen.dat0 (F := Ideal) V c).flushed 2 t
      = ((cfg0.win 2).blk t).view.read (Elt Ideal)
          (Cert.ReferenceIdeal.Read.val_main_v26 (F := Ideal) (V c main_arg0) (V c main_arg3)) := by
  show (cfg0.win 2).cut (grid0.coords t) ((Gen.dat0 (F := Ideal) V c).after 2 t) = _
  rw [Gen.after0_2]
  unfold Gen.out0_2
  rw [View.canon_unit_zero zero_offsets]
  simp only [View.ld_unit_zero (S := S5000x64) zero_offsets, View.ld_unit_zero (S := S64x64) zero_offsets]
  funext j
  exact block_entry0 V c t j

/-- An entry of the array lies in point `t`'s block iff on each axis its coordinate is within the block's range. -/
theorem mem_block0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v26).slice (win0_2.rect t)).set ↔ _
  rw [View.set_slice_whole, Rect.mem_set_unit]
  exact Iff.rfl

/-- Every entry of the array is written back by some point: row r lies in the block of point r / 5000. -/
theorem rows_covered0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := block_onto0 ⟨(i 0).val / 5000, by omega⟩
  have q0 : win0_2.index t (0 : Fin 2) = (i 0).val / 5000 := congrFun ht 0
  have q1 : win0_2.index t (1 : Fin 2) = 0 := congrFun ht 1
  refine ⟨t, Gen.flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After region 0's ten points the product array holds, entry by entry, the sum over k of `main_arg0`'s entry (r, k) times
    `main_arg3`'s entry (k, f): the reference's dense product of the two arrays as the region finds them. -/
theorem arr0 (V : (c : Dev nD) → (b : Ref sig .tc) → Buf (Elt Ideal) ((c : Thread nD τ).loc b)) (c : Dev nD) :
    (Gen.dat0 (F := Ideal) V c).arrAt 2 cfg0.N
      = Cert.ReferenceIdeal.Read.val_main_v26 (F := Ideal) (V c main_arg0) (V c main_arg3) :=
  (Gen.dat0 (F := Ideal) V c).arrAt_eq_of_cover 2 _ (fun t _ => flushed_block0 V c t) rows_covered0

/-! ## The product written by region 2: rows of `main_v63` times `main_arg7` -/

/-- Over the grid's ten points: the row block of the left factor and of the product is the point's number, in column block 0;
    the right factor's single block stays at (0, 0). -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Each of the ten row blocks of the product belongs to some point of the grid. -/
theorem block_onto2 : ∀ b : Fin 10, ∃ t : Fin cfg2.N, win2_2.index t = ![b.val, 0] :=
  (by decide +kernel : ∀ b : Fin 10, ∃ t : Fin grid2.N, win2_2.index t = ![b.val, 0])

/-- Entry (p, q) of the block computed at a point is the sum over k of entry (p, k) of the left block times entry (k, q)
    of the right block: the narrowing of both blocks is the identity on the extended reals, and the accumulator starts at zero. -/
theorem product_block2 (x0 : Vec Ideal S5000x64 .f32) (x1 : Vec Ideal S64x64 .f32) (p : Fin 5000) (q : Fin 64) :
    Gen.k2_pay1 (F := Ideal) x0 x1 (ix2 p q) = ∑ k : Fin 64, x0 (ix2 p k) * x1 (ix2 k q) := by
  unfold Gen.k2_pay1
  rw [shapeCast_self]
  refine (Ideal.matmul_constant_zero_apply dot_S5000x64_S64x64_S5000x64_1_0_0_1_n_n none _ _ (ix2 p q)).trans ?_
  rw [← Equiv.sum_comp (ValueIdx.contrEquiv1 dot_S5000x64_S64x64_S5000x64_1_0_0_1_n_n 64 rfl rfl).symm]
  refine Finset.sum_congr rfl fun k _ => ?_
  rw [lhs_index p q k, rhs_index p q k]
  rfl

/-- Entry (p, k) of the left factor's block at point `t` is the array's entry in row 5000 t + p, column k: the row and
    column the reference's sum reads for the product's entry in row 5000 t + p. -/
theorem left_block2 (V : (c : Dev nD) → (b : Ref sig .tc) → Buf (Elt Ideal) ((c : Thread nD τ).loc b)) (c : Dev nD)
    (t : Fin cfg2.N) (p : Fin 5000) (q k : Fin 64) :
    (Gen.iblk2 (F := Ideal) V c 0 t : Vec Ideal S5000x64 .f32) (ix2 p k)
      = (V c main_v63 : S50000x64.Idx → Elt Ideal .f32)
          (Cert.ReferenceIdeal.Read.lidx_main_v26 (((cfg2.win 2).blk t).view.emb (ix2 p q)) k) := by
  obtain ⟨e0, e1, e2, e3, e4, e5⟩ := block_index2 t
  show (V c main_v63 : S50000x64.Idx → Elt Ideal .f32) (((cfg2.win 0).blk t).view.emb (ix2 p k)) = _
  congr 1
  funext a
  apply Fin.ext
  match a with
  | ⟨0, _⟩ => show win2_0.index t (0 : Fin 2) * 5000 + 1 * p.val = win2_2.index t (0 : Fin 2) * 5000 + 1 * p.val; omega
  | ⟨1, _⟩ => show win2_0.index t (1 : Fin 2) * 64 + 1 * k.val = k.val; omega

/-- Entry (k, q) of the right factor's block at any point is the array's entry (k, q): its one block is the whole array,
    and the product's entry in column q reads column q. -/
theorem right_block2 (V : (c : Dev nD) → (b : Ref sig .tc) → Buf (Elt Ideal) ((c : Thread nD τ).loc b)) (c : Dev nD)
    (t : Fin cfg2.N) (p : Fin 5000) (q k : Fin 64) :
    (Gen.iblk2 (F := Ideal) V c 1 t : Vec Ideal S64x64 .f32) (ix2 k q)
      = (V c main_arg7 : S64x64.Idx → Elt Ideal .f32)
          (Cert.ReferenceIdeal.Read.ridx_main_v26 (((cfg2.win 2).blk t).view.emb (ix2 p q)) k) := by
  obtain ⟨e0, e1, e2, e3, e4, e5⟩ := block_index2 t
  show (V c main_arg7 : S64x64.Idx → Elt Ideal .f32) (((cfg2.win 1).blk t).view.emb (ix2 k q)) = _
  congr 1
  funext a
  apply Fin.ext
  match a with
  | ⟨0, _⟩ => show win2_1.index t (0 : Fin 2) * 64 + 1 * k.val = k.val; omega
  | ⟨1, _⟩ => show win2_1.index t (1 : Fin 2) * 64 + 1 * q.val = win2_2.index t (1 : Fin 2) * 64 + 1 * q.val; omega

/-- An entry of the block computed at point `t` is the whole-array product's entry at that entry's place in the array. -/
theorem block_entry2 (V : (c : Dev nD) → (b : Ref sig .tc) → Buf (Elt Ideal) ((c : Thread nD τ).loc b)) (c : Dev nD)
    (t : Fin cfg2.N) (j : S5000x64.Idx) :
    Gen.k2_pay1 (F := Ideal) (Gen.iblk2 (F := Ideal) V c 0 t) (Gen.iblk2 (F := Ideal) V c 1 t) j
      = Cert.ReferenceIdeal.Read.val_main_v26 (F := Ideal) (V c main_v63) (V c main_arg7) (((cfg2.win 2).blk t).view.emb j) := by
  obtain ⟨p, q, rfl⟩ : ∃ (p : Fin 5000) (q : Fin 64), j = ix2 p q := ⟨j 0, j 1, eq_ix2 j⟩
  refine (product_block2 (Gen.iblk2 (F := Ideal) V c 0 t) (Gen.iblk2 (F := Ideal) V c 1 t) p q).trans ?_
  rw [Cert.ReferenceIdeal.Read.val_main_v26_apply]
  refine Finset.sum_congr rfl fun k _ => ?_
  rw [left_block2 V c t p q k, right_block2 V c t p q k]

/-- What point `t` writes back is block `t` of the whole-array product of the two arrays as the region finds them. -/
theorem flushed_block2 (V : (c : Dev nD) → (b : Ref sig .tc) → Buf (Elt Ideal) ((c : Thread nD τ).loc b)) (c : Dev nD)
    (t : Fin cfg2.N) :
    (Gen.dat2 (F := Ideal) V c).flushed 2 t
      = ((cfg2.win 2).blk t).view.read (Elt Ideal)
          (Cert.ReferenceIdeal.Read.val_main_v26 (F := Ideal) (V c main_v63) (V c main_arg7)) := by
  show (cfg2.win 2).cut (grid2.coords t) ((Gen.dat2 (F := Ideal) V c).after 2 t) = _
  rw [Gen.after2_2]
  unfold Gen.out2_2
  rw [View.canon_unit_zero zero_offsets]
  simp only [View.ld_unit_zero (S := S5000x64) zero_offsets, View.ld_unit_zero (S := S64x64) zero_offsets]
  funext j
  exact block_entry2 V c t j

/-- An entry of the array lies in point `t`'s block iff on each axis its coordinate is within the block's range. -/
theorem mem_block2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v64).slice (win2_2.rect t)).set ↔ _
  rw [View.set_slice_whole, Rect.mem_set_unit]
  exact Iff.rfl

/-- Every entry of the array is written back by some point: row r lies in the block of point r / 5000. -/
theorem rows_covered2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := block_onto2 ⟨(i 0).val / 5000, by omega⟩
  have q0 : win2_2.index t (0 : Fin 2) = (i 0).val / 5000 := congrFun ht 0
  have q1 : win2_2.index t (1 : Fin 2) = 0 := congrFun ht 1
  refine ⟨t, Gen.flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After region 2's ten points the product array holds, entry by entry, the sum over k of `main_v63`'s entry (r, k) times
    `main_arg7`'s entry (k, f): the reference's dense product of the two arrays as the region finds them. -/
theorem arr2 (V : (c : Dev nD) → (b : Ref sig .tc) → Buf (Elt Ideal) ((c : Thread nD τ).loc b)) (c : Dev nD) :
    (Gen.dat2 (F := Ideal) V c).arrAt 2 cfg2.N
      = Cert.ReferenceIdeal.Read.val_main_v26 (F := Ideal) (V c main_v63) (V c main_arg7) :=
  (Gen.dat2 (F := Ideal) V c).arrAt_eq_of_cover 2 _ (fun t _ => flushed_block2 V c t) rows_covered2

end Cert.KernelIdeal.StageLin

end
-- ==== Proof.StageNorm.lean ====
/-
  The two normalisation stages of the block, each computed in ten row blocks of 5000 nodes.

  A stage reads a block of the hidden array `h` and four rows of per-feature statistics (mean `μ`, variance `v`,
  scale `γ`, shift `β`) and writes, at entry `(n, f)` of the block,

      max ( ((h(n,f) − μ(f)) · (v(f) + ε)^(-1/2)) · γ(f) + β(f) , 0 ),

  the last stage adding the residual entry `x(n,f)` before the maximum. Entry `(p, f)` of the block at grid point `t`
  is entry `(5000·t + p, f)` of the array, the four rows are read whole at every point, and the ten blocks tile the
  array; so after the stage the output array is the whole-array function of `Cert.GcnSpec` of the arrays the stage found.
-/
import proofs.«112059_j75505525064552_1_alg».proof.Proof.Gen.KernelIdeal.Frame
import proofs.«112059_j75505525064552_1_alg».proof.Proof.Spec
import Idealize.ShloMosaic.Lib.Pipeline.Value
import Idealize.ShloMosaic.Lib.ValueIdx
import Idealize.ShloMosaic.Lib.ValueLayout

noncomputable section

namespace Cert.KernelIdeal.StageNorm

open Cert.KernelIdeal Cert.KernelIdeal.Gen Idealize.ShloMosaic Idealize.ShloMosaic.TcCoe Idealize.SL.Sem
open Idealize.ShloMosaic.Pipeline (Dat)
open Idealize.ShloMosaic.ValueIdx
open Cert.GcnSpec (SN SF SR row col eps affine bnRelu bnResRelu)

/-- The zero offsets of a whole-block rectangle, as a constant function. -/
theorem zero_offsets : (![0, 0] : Fin 2 → Nat) = fun _ => 0 := funext fun a => by fin_cases a <;> rfl

/-! ## Rows and features -/

/-- A row read at the feature of a matrix entry is the row's entry in that entry's column. -/
theorem row_col (a : SR.Idx → EReal) (i : SN.Idx) (q : Fin 64) (h : (i 1).val = q.val) :
    row a (col i) = a (ix2 (0 : Fin 1) q) := by
  have e : (⟨(i 1).val, (i 1).isLt⟩ : Fin 64) = q := Fin.ext h
  show a (ix2 (0 : Fin 1) (⟨(i 1).val, (i 1).isLt⟩ : Fin 64)) = _
  rw [e]

/-! ## The first normalisation stage -/

/-- The stage's value at entry `(p, q)` of a block: the block's entry normalised by the rows' entries in column `q`,
    scaled, shifted and rectified. -/
theorem pay1_apply (x0 : Vec Ideal S5000x64 .f32) (xv xm xg xb : Vec Ideal S1x64 .f32) (p : Fin 5000) (q : Fin 64) :
    Gen.k1_pay1 (F := Ideal) x0 xv xm xg xb (ix2 p q)
      = max (((x0 (ix2 p q) - xm (ix2 (0 : Fin 1) q)) * Ideal.rsqrt (xv (ix2 (0 : Fin 1) q) + eps)) * xg (ix2 (0 : Fin 1) q)
          + xb (ix2 (0 : Fin 1) q)) (Ideal.ofBits .f32 0x00000000#32) := by
  unfold Gen.k1_pay1
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply]
  rfl

section Stages

variable (V : (c : Dev nD) → (b : Ref sig .tc) → Buf (Elt Ideal) ((c : Thread nD τ).loc b))

/-- The stage's value at an entry of a block whose entries are entries of whole arrays: the whole-array function at the
    array entry the block entry is. -/
theorem point1 (H : SN.Idx → EReal) (M Vr G B : SR.Idx → EReal)
    (x0 : Vec Ideal S5000x64 .f32) (xv xm xg xb : Vec Ideal S1x64 .f32) (p : Fin 5000) (q : Fin 64) (i : SN.Idx)
    (hq : (i 1).val = q.val) (e0 : x0 (ix2 p q) = H i)
    (em : xm (ix2 (0 : Fin 1) q) = M (ix2 (0 : Fin 1) q)) (ev : xv (ix2 (0 : Fin 1) q) = Vr (ix2 (0 : Fin 1) q))
    (eg : xg (ix2 (0 : Fin 1) q) = G (ix2 (0 : Fin 1) q)) (eb : xb (ix2 (0 : Fin 1) q) = B (ix2 (0 : Fin 1) q)) :
    Gen.k1_pay1 (F := Ideal) x0 xv xm xg xb (ix2 p q) = bnRelu H (row M) (row Vr) (row G) (row B) i := by
  rw [pay1_apply, e0, em, ev, eg, eb]
  unfold bnRelu affine
  rw [row_col M i q hq, row_col Vr i q hq, row_col G i q hq, row_col B i q hq]

/-- The block index of each window at each grid point: the hidden array's and the output's blocks move down the rows
    with the point, the four rows are read whole at every point. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry `y` of the hidden array's block at point `t` is the array's entry `5000·t` rows further down. -/
theorem blk1_hidden (c : Dev nD) (t : Fin cfg1.N) (y : S5000x64.Idx) (i : S50000x64.Idx)
    (h0 : (i 0).val = t.val * 5000 + (y 0).val) (h1 : (i 1).val = (y 1).val) :
    Gen.iblk1 V c 0 t y = V c main_v48 i := by
  obtain ⟨e0, e1, -⟩ := idx1 t
  show V c main_v48 (((cfg1.win 0).blk t).view.emb y) = V c main_v48 i
  refine congrArg (V c main_v48) ?_
  funext a; apply Fin.ext
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- The mean row's block at every point is the row. -/
theorem blk1_mean (c : Dev nD) (t : Fin cfg1.N) (y : S1x64.Idx) : Gen.iblk1 V c 1 t y = V c main_v59 y := by
  obtain ⟨-, -, e0, e1, -⟩ := idx1 t
  show V c main_v59 (((cfg1.win 1).blk t).view.emb y) = V c main_v59 y
  refine congrArg (V c main_v59) ?_
  funext a; apply Fin.ext
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- The variance row's block at every point is the row. -/
theorem blk1_var (c : Dev nD) (t : Fin cfg1.N) (y : S1x64.Idx) : Gen.iblk1 V c 2 t y = V c main_v60 y := by
  obtain ⟨-, -, -, -, e0, e1, -⟩ := idx1 t
  show V c main_v60 (((cfg1.win 2).blk t).view.emb y) = V c main_v60 y
  refine congrArg (V c main_v60) ?_
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The scale row's block at every point is the row. -/
theorem blk1_scale (c : Dev nD) (t : Fin cfg1.N) (y : S1x64.Idx) : Gen.iblk1 V c 3 t y = V c main_v61 y := by
  obtain ⟨-, -, -, -, -, -, e0, e1, -⟩ := idx1 t
  show V c main_v61 (((cfg1.win 3).blk t).view.emb y) = V c main_v61 y
  refine congrArg (V c main_v61) ?_
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The shift row's block at every point is the row. -/
theorem blk1_shift (c : Dev nD) (t : Fin cfg1.N) (y : S1x64.Idx) : Gen.iblk1 V c 4 t y = V c main_v62 y := by
  obtain ⟨-, -, -, -, -, -, -, -, e0, e1, -⟩ := idx1 t
  show V c main_v62 (((cfg1.win 4).blk t).view.emb y) = V c main_v62 y
  refine congrArg (V c main_v62) ?_
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- What point `t` writes back is block `t` of the normalised, rectified array. -/
theorem flushed1 (c : Dev nD) (t : Fin cfg1.N) :
    (Gen.dat1 (F := Ideal) V c).flushed 5 t
      = ((cfg1.win 5).blk t).view.read (Elt Ideal)
          (bnRelu (V c main_v48) (row (V c main_v59)) (row (V c main_v60)) (row (V c main_v61)) (row (V c main_v62))) := by
  show (cfg1.win 5).cut (grid1.coords t) ((Gen.dat1 V c).after 5 t) = _
  rw [Gen.after1_5]
  unfold Gen.out1_5
  rw [View.canon_unit_zero zero_offsets]
  simp only [View.ld_unit_zero (S := S5000x64) zero_offsets, View.ld_unit_zero (S := S1x64) zero_offsets]
  obtain ⟨-, -, -, -, -, -, -, -, -, -, e0, e1⟩ := idx1 t
  funext j
  have hj : (cfg1.win 5).xinj (grid1.coords t) j
      = ix2 (⟨(j 0).val, (j 0).isLt⟩ : Fin 5000) (⟨(j 1).val, (j 1).isLt⟩ : Fin 64) := by
    funext a
    match a with
    | ⟨0, _⟩ => rfl
    | ⟨1, _⟩ => rfl
  have h0 : ((((cfg1.win 5).blk t).view.emb j) 0).val = t.val * 5000 + (j 0).val := by
    show win1_5.index t (0 : Fin 2) * 5000 + 1 * (j 0).val = _; omega
  have h1 : ((((cfg1.win 5).blk t).view.emb j) 1).val = (j 1).val := by
    show win1_5.index t (1 : Fin 2) * 64 + 1 * (j 1).val = _; omega
  exact (congrArg (Gen.k1_pay1 (F := Ideal) (Gen.iblk1 V c 0 t) (Gen.iblk1 V c 2 t) (Gen.iblk1 V c 1 t) (Gen.iblk1 V c 3 t) (Gen.iblk1 V c 4 t)) hj).trans
    (point1 (V c main_v48) (V c main_v59) (V c main_v60) (V c main_v61) (V c main_v62) _ _ _ _ _ _ _
      (((cfg1.win 5).blk t).view.emb j) h1 (blk1_hidden V c t _ _ h0 h1)
      (blk1_mean V c t _) (blk1_var V c t _) (blk1_scale V c t _) (blk1_shift V c t _))

/-- An entry of the array is in point `t`'s block iff each coordinate is in the block's range on its axis. -/
theorem mem_blk1 (t : Fin cfg1.N) (i : S50000x64.Idx) :
    i ∈ ((cfg1.win 5).blk t).view.set
      ↔ ∀ a : Fin 2, win1_5.index t a * S5000x64.size a ≤ (i a).val ∧ (i a).val < win1_5.index t a * S5000x64.size a + S5000x64.size a := by
  show i ∈ ((View.whole main_v63).slice (win1_5.rect t)).set ↔ _
  rw [View.set_slice_whole, Rect.mem_set_unit]
  exact Iff.rfl

/-- Row `r` of the array lies in the block of point `r / 5000`, and every point writes its block back. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show (i 0).val / 5000 < 10; omega⟩, rfl⟩
  obtain ⟨-, -, -, -, -, -, -, -, -, -, e0, e1⟩ := idx1 t
  refine ⟨t, Gen.flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the first normalisation stage the output array is the normalised, scaled, shifted and rectified hidden array. -/
theorem arr1 (c : Dev nD) :
    (Gen.dat1 (F := Ideal) V c).arrAt 5 cfg1.N
      = Cert.GcnSpec.bnRelu (V c main_v48) (Cert.GcnSpec.row (V c main_v59)) (Cert.GcnSpec.row (V c main_v60))
          (Cert.GcnSpec.row (V c main_v61)) (Cert.GcnSpec.row (V c main_v62)) :=
  (Gen.dat1 (F := Ideal) V c).arrAt_eq_of_cover 5 _ (fun t _ => flushed1 V c t) cover1

/-! ## The last normalisation stage, with the residual -/

/-- The stage's value at entry `(p, q)` of a block: the block's entry normalised by the rows' entries in column `q`,
    scaled and shifted, the residual block's entry added, then rectified. -/
theorem pay3_apply (x0 : Vec Ideal S5000x64 .f32) (xv xm xg xb : Vec Ideal S1x64 .f32) (xr : Vec Ideal S5000x64 .f32)
    (p : Fin 5000) (q : Fin 64) :
    Gen.k3_pay1 (F := Ideal) x0 xv xm xg xb xr (ix2 p q)
      = max ((((x0 (ix2 p q) - xm (ix2 (0 : Fin 1) q)) * Ideal.rsqrt (xv (ix2 (0 : Fin 1) q) + eps)) * xg (ix2 (0 : Fin 1) q)
          + xb (ix2 (0 : Fin 1) q)) + xr (ix2 p q)) (Ideal.ofBits .f32 0x00000000#32) := by
  unfold Gen.k3_pay1
  simp only [shapeCast_self]
  rw [maximumf_apply, addf_apply, addf_apply, mulf_apply, mulf_apply, subf_apply, broadcastTo_1b_ab_apply,
    broadcastTo_1b_ab_apply, broadcastTo_1b_ab_apply, broadcastTo_1b_ab_apply, broadcast_apply]
  rfl

/-- The stage's value at an entry of a block whose entries are entries of whole arrays: the whole-array function at the
    array entry the block entry is. -/
theorem point3 (H : SN.Idx → EReal) (M Vr G B : SR.Idx → EReal) (X : SN.Idx → EReal)
    (x0 : Vec Ideal S5000x64 .f32) (xv xm xg xb : Vec Ideal S1x64 .f32) (xr : Vec Ideal S5000x64 .f32)
    (p : Fin 5000) (q : Fin 64) (i : SN.Idx)
    (hq : (i 1).val = q.val) (e0 : x0 (ix2 p q) = H i)
    (em : xm (ix2 (0 : Fin 1) q) = M (ix2 (0 : Fin 1) q)) (ev : xv (ix2 (0 : Fin 1) q) = Vr (ix2 (0 : Fin 1) q))
    (eg : xg (ix2 (0 : Fin 1) q) = G (ix2 (0 : Fin 1) q)) (eb : xb (ix2 (0 : Fin 1) q) = B (ix2 (0 : Fin 1) q))
    (er : xr (ix2 p q) = X i) :
    Gen.k3_pay1 (F := Ideal) x0 xv xm xg xb xr (ix2 p q) = bnResRelu H (row M) (row Vr) (row G) (row B) X i := by
  rw [pay3_apply, e0, em, ev, eg, eb, er]
  unfold bnResRelu affine
  rw [row_col M i q hq, row_col Vr i q hq, row_col G i q hq, row_col B i q hq]

/-- The block index of each window at each grid point: the hidden array's, the residual's and the output's blocks move
    down the rows with the point, the four rows are read whole at every point. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Entry `y` of the hidden array's block at point `t` is the array's entry `5000·t` rows further down. -/
theorem blk3_hidden (c : Dev nD) (t : Fin cfg3.N) (y : S5000x64.Idx) (i : S50000x64.Idx)
    (h0 : (i 0).val = t.val * 5000 + (y 0).val) (h1 : (i 1).val = (y 1).val) :
    Gen.iblk3 V c 0 t y = V c main_v86 i := by
  obtain ⟨e0, e1, -⟩ := idx3 t
  show V c main_v86 (((cfg3.win 0).blk t).view.emb y) = V c main_v86 i
  refine congrArg (V c main_v86) ?_
  funext a; apply Fin.ext
  match a with
  | ⟨0, _⟩ => show win3_0.index t (0 : Fin 2) * 5000 + 1 * (y 0).val = (i 0).val; omega
  | ⟨1, _⟩ => show win3_0.index t (1 : Fin 2) * 64 + 1 * (y 1).val = (i 1).val; omega

/-- The mean row's block at every point is the row. -/
theorem blk3_mean (c : Dev nD) (t : Fin cfg3.N) (y : S1x64.Idx) : Gen.iblk3 V c 1 t y = V c main_v97 y := by
  obtain ⟨-, -, e0, e1, -⟩ := idx3 t
  show V c main_v97 (((cfg3.win 1).blk t).view.emb y) = V c main_v97 y
  refine congrArg (V c main_v97) ?_
  funext a; apply Fin.ext
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- The variance row's block at every point is the row. -/
theorem blk3_var (c : Dev nD) (t : Fin cfg3.N) (y : S1x64.Idx) : Gen.iblk3 V c 2 t y = V c main_v98 y := by
  obtain ⟨-, -, -, -, e0, e1, -⟩ := idx3 t
  show V c main_v98 (((cfg3.win 2).blk t).view.emb y) = V c main_v98 y
  refine congrArg (V c main_v98) ?_
  funext a; apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- The scale row's block at every point is the row. -/
theorem blk3_scale (c : Dev nD) (t : Fin cfg3.N) (y : S1x64.Idx) : Gen.iblk3 V c 3 t y = V c main_v99 y := by
  obtain ⟨-, -, -, -, -, -, e0, e1, -⟩ := idx3 t
  show V c main_v99 (((cfg3.win 3).blk t).view.emb y) = V c main_v99 y
  refine congrArg (V c main_v99) ?_
  funext a; apply Fin.ext
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- The shift row's block at every point is the row. -/
theorem blk3_shift (c : Dev nD) (t : Fin cfg3.N) (y : S1x64.Idx) : Gen.iblk3 V c 4 t y = V c main_v100 y := by
  obtain ⟨-, -, -, -, -, -, -, -, e0, e1, -⟩ := idx3 t
  show V c main_v100 (((cfg3.win 4).blk t).view.emb y) = V c main_v100 y
  refine congrArg (V c main_v100) ?_
  funext a; apply Fin.ext
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- Entry `y` of the residual's block at point `t` is the residual array's entry `5000·t` rows further down. -/
theorem blk3_residual (c : Dev nD) (t : Fin cfg3.N) (y : S5000x64.Idx) (i : S50000x64.Idx)
    (h0 : (i 0).val = t.val * 5000 + (y 0).val) (h1 : (i 1).val = (y 1).val) :
    Gen.iblk3 V c 5 t y = V c main_arg0 i := by
  obtain ⟨-, -, -, -, -, -, -, -, -, -, e0, e1, -⟩ := idx3 t
  show V c main_arg0 (((cfg3.win 5).blk t).view.emb y) = V c main_arg0 i
  refine congrArg (V c main_arg0) ?_
  funext a; apply Fin.ext
  match a with
  | ⟨0, _⟩ => show win3_5.index t (0 : Fin 2) * 5000 + 1 * (y 0).val = (i 0).val; omega
  | ⟨1, _⟩ => show win3_5.index t (1 : Fin 2) * 64 + 1 * (y 1).val = (i 1).val; omega

/-- What point `t` writes back is block `t` of the normalised array with the residual added, rectified. -/
theorem flushed3 (c : Dev nD) (t : Fin cfg3.N) :
    (Gen.dat3 (F := Ideal) V c).flushed 6 t
      = ((cfg3.win 6).blk t).view.read (Elt Ideal)
          (bnResRelu (V c main_v86) (row (V c main_v97)) (row (V c main_v98)) (row (V c main_v99)) (row (V c main_v100))
            (V c main_arg0)) := by
  show (cfg3.win 6).cut (grid3.coords t) ((Gen.dat3 V c).after 6 t) = _
  rw [Gen.after3_6]
  unfold Gen.out3_6
  rw [View.canon_unit_zero zero_offsets]
  simp only [View.ld_unit_zero (S := S5000x64) zero_offsets, View.ld_unit_zero (S := S1x64) zero_offsets]
  obtain ⟨-, -, -, -, -, -, -, -, -, -, -, -, e0, e1⟩ := idx3 t
  funext j
  have hj : (cfg3.win 6).xinj (grid3.coords t) j
      = ix2 (⟨(j 0).val, (j 0).isLt⟩ : Fin 5000) (⟨(j 1).val, (j 1).isLt⟩ : Fin 64) := by
    funext a
    match a with
    | ⟨0, _⟩ => rfl
    | ⟨1, _⟩ => rfl
  have h0 : ((((cfg3.win 6).blk t).view.emb j) 0).val = t.val * 5000 + (j 0).val := by
    show win3_6.index t (0 : Fin 2) * 5000 + 1 * (j 0).val = _; omega
  have h1 : ((((cfg3.win 6).blk t).view.emb j) 1).val = (j 1).val := by
    show win3_6.index t (1 : Fin 2) * 64 + 1 * (j 1).val = _; omega
  exact (congrArg (Gen.k3_pay1 (F := Ideal) (Gen.iblk3 V c 0 t) (Gen.iblk3 V c 2 t) (Gen.iblk3 V c 1 t) (Gen.iblk3 V c 3 t) (Gen.iblk3 V c 4 t) (Gen.iblk3 V c 5 t)) hj).trans
    (point3 (V c main_v86) (V c main_v97) (V c main_v98) (V c main_v99) (V c main_v100) (V c main_arg0) _ _ _ _ _ _ _ _
      (((cfg3.win 6).blk t).view.emb j) h1 (blk3_hidden V c t _ _ h0 h1)
      (blk3_mean V c t _) (blk3_var V c t _) (blk3_scale V c t _) (blk3_shift V c t _) (blk3_residual V c t _ _ h0 h1))

/-- An entry of the array is in point `t`'s block iff each coordinate is in the block's range on its axis. -/
theorem mem_blk3 (t : Fin cfg3.N) (i : S50000x64.Idx) :
    i ∈ ((cfg3.win 6).blk t).view.set
      ↔ ∀ a : Fin 2, win3_6.index t a * S5000x64.size a ≤ (i a).val ∧ (i a).val < win3_6.index t a * S5000x64.size a + S5000x64.size a := by
  show i ∈ ((View.whole main_v101).slice (win3_6.rect t)).set ↔ _
  rw [View.set_slice_whole, Rect.mem_set_unit]
  exact Iff.rfl

/-- Row `r` of the array lies in the block of point `r / 5000`, and every point writes its block back. -/
theorem cover3 (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by show (i 0).val / 5000 < 10; omega⟩, rfl⟩
  obtain ⟨-, -, -, -, -, -, -, -, -, -, -, -, e0, e1⟩ := idx3 t
  refine ⟨t, Gen.flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- After the last normalisation stage the output array is the normalised, scaled and shifted hidden array with the
    residual added, rectified. -/
theorem arr3 (c : Dev nD) :
    (Gen.dat3 (F := Ideal) V c).arrAt 6 cfg3.N
      = Cert.GcnSpec.bnResRelu (V c main_v86) (Cert.GcnSpec.row (V c main_v97)) (Cert.GcnSpec.row (V c main_v98))
          (Cert.GcnSpec.row (V c main_v99)) (Cert.GcnSpec.row (V c main_v100)) (V c main_arg0) :=
  (Gen.dat3 (F := Ideal) V c).arrAt_eq_of_cover 6 _ (fun t _ => flushed3 V c t) cover3

end Stages

end Cert.KernelIdeal.StageNorm

end
-- ==== Proof.RefNorm.lean ====
/-
  The reference's two normalisation stages, read entry by entry.

  After each graph convolution the reference holds a hidden array `h` of shape [50000, 64] together with the
  per-feature mean `μ` and variance `v` of its columns. It then spreads `μ`, the inverse root of `v + ε`, the scale
  `γ` and the shift `β` over the rows (each vector [64] is first laid out as a row [1, 64] and the row is repeated
  50000 times), and combines them with `h` pointwise. Entry `(n, f)` of every spread array is the vector's entry
  `f`, so entry `(n, f)` of the stage depends only on `h(n, f)`, `μ(f)`, `v(f)`, `γ(f)`, `β(f)` (and, in the second
  stage, on the input entry `x(n, f)`): the stage is the whole-array function `bnRelu`, respectively `bnResRelu`,
  of the specification.
-/
import proofs.«112059_j75505525064552_1_alg».proof.Proof.Gen.ReferenceIdeal.Read
import proofs.«112059_j75505525064552_1_alg».proof.Proof.Spec

noncomputable section

namespace Cert.ReferenceIdeal.RefNorm

open Cert.ReferenceIdeal Idealize.ShloMosaic Cert.GcnSpec

/-! ### Spreading a per-feature vector over the rows reads the vector at the entry's feature

A vector [64] is laid out as a row [1, 64] and the row is repeated along the 50000 nodes. Reading the result at entry
`(n, f)` reads the row at `(0, f)` and hence the vector at `f`, which is `col (n, f)`. The four spreads of each stage
(mean, inverse root, scale, shift) all have this form. -/

/-- First stage, the mean: entry `(n, f)` of the spread array is the vector's entry `f`. -/
theorem feature_of_mean1 (i : S50000x64.Idx) : Read.idx_main_v59 (Read.idx_main_v60 i) = col i :=
  funext fun a => Fin.ext (by match a with | ⟨0, _⟩ => rfl)

/-- First stage, the inverse root of the shifted variance: entry `(n, f)` of the spread array is the vector's entry `f`. -/
theorem feature_of_scale1 (i : S50000x64.Idx) : Read.idx_main_v65 (Read.idx_main_v66 i) = col i :=
  funext fun a => Fin.ext (by match a with | ⟨0, _⟩ => rfl)

/-- First stage, the scale `γ`: entry `(n, f)` of the spread array is the vector's entry `f`. -/
theorem feature_of_gamma1 (i : S50000x64.Idx) : Read.idx_main_v68 (Read.idx_main_v69 i) = col i :=
  funext fun a => Fin.ext (by match a with | ⟨0, _⟩ => rfl)

/-- First stage, the shift `β`: entry `(n, f)` of the spread array is the vector's entry `f`. -/
theorem feature_of_beta1 (i : S50000x64.Idx) : Read.idx_main_v71 (Read.idx_main_v72 i) = col i :=
  funext fun a => Fin.ext (by match a with | ⟨0, _⟩ => rfl)

/-- Second stage, the mean: entry `(n, f)` of the spread array is the vector's entry `f`. -/
theorem feature_of_mean2 (i : S50000x64.Idx) : Read.idx_main_v130 (Read.idx_main_v131 i) = col i :=
  funext fun a => Fin.ext (by match a with | ⟨0, _⟩ => rfl)

/-- Second stage, the inverse root of the shifted variance: entry `(n, f)` of the spread array is the vector's entry `f`. -/
theorem feature_of_scale2 (i : S50000x64.Idx) : Read.idx_main_v136 (Read.idx_main_v137 i) = col i :=
  funext fun a => Fin.ext (by match a with | ⟨0, _⟩ => rfl)

/-- Second stage, the scale `γ`: entry `(n, f)` of the spread array is the vector's entry `f`. -/
theorem feature_of_gamma2 (i : S50000x64.Idx) : Read.idx_main_v139 (Read.idx_main_v140 i) = col i :=
  funext fun a => Fin.ext (by match a with | ⟨0, _⟩ => rfl)

/-- Second stage, the shift `β`: entry `(n, f)` of the spread array is the vector's entry `f`. -/
theorem feature_of_beta2 (i : S50000x64.Idx) : Read.idx_main_v142 (Read.idx_main_v143 i) = col i :=
  funext fun a => Fin.ext (by match a with | ⟨0, _⟩ => rfl)

/-! ### The two whole-array maps at an entry -/

/-- `bnRelu` at an entry: centre, scale by the inverse root of the shifted variance, scale by `γ`, shift by `β`,
    and take the maximum with zero. -/
theorem bnRelu_entry (h : SN.Idx → EReal) (μ v γ β : SF.Idx → EReal) (i : SN.Idx) :
    max (((h i - μ (col i)) * Ideal.rsqrt (v (col i) + Ideal.ofBits .f32 0x3727C5AC#32)) * γ (col i) + β (col i))
        (Ideal.ofBits .f32 0x00000000#32)
      = bnRelu h μ v γ β i := rfl

/-- `bnResRelu` at an entry: as `bnRelu`, with the residual entry added before the maximum with zero. -/
theorem bnResRelu_entry (h : SN.Idx → EReal) (μ v γ β : SF.Idx → EReal) (x : SN.Idx → EReal) (i : SN.Idx) :
    max ((((h i - μ (col i)) * Ideal.rsqrt (v (col i) + Ideal.ofBits .f32 0x3727C5AC#32)) * γ (col i) + β (col i)) + x i)
        (Ideal.ofBits .f32 0x00000000#32)
      = bnResRelu h μ v γ β x i := rfl

/-! ### The stages -/

/-- The reference's first normalisation stage is `bnRelu` of the first convolution's output, its column means and
    column variances, and the first scale and shift. -/
theorem norm1 (x0 : (⟨S50000x64, .f32⟩ : BufTy).Contents (Elt Ideal)) (x1 : (⟨S2x800000, .i32⟩ : BufTy).Contents (Elt Ideal)) (x2 : (⟨S800000, .f32⟩ : BufTy).Contents (Elt Ideal)) (x3 : (⟨S64x64, .f32⟩ : BufTy).Contents (Elt Ideal)) (x4 x5 x6 : (⟨S64, .f32⟩ : BufTy).Contents (Elt Ideal)) :
    Read.val_main_v74 (F := Ideal) x0 x1 x2 x3 x4 x5 x6
      = Cert.GcnSpec.bnRelu (Read.val_main_v48 (F := Ideal) x0 x1 x2 x3 x4) (Read.val_main_v51 (F := Ideal) x0 x1 x2 x3 x4) (Read.val_main_v58 (F := Ideal) x0 x1 x2 x3 x4) x5 x6 := by
  funext i
  rw [Read.val_main_v74_apply, Read.val_main_v73_apply, Read.val_main_v70_apply, Read.val_main_v67_apply,
    Read.val_main_v61_apply, Read.val_main_v60_apply, Read.val_main_v59_apply,
    Read.val_main_v66_apply, Read.val_main_v65_apply, Read.val_main_v64_apply, Read.val_main_v63_apply,
    Read.val_main_v62_apply, Read.val_main_cst_12_apply,
    Read.val_main_v69_apply, Read.val_main_v68_apply, Read.val_main_v72_apply, Read.val_main_v71_apply,
    Read.val_main_call0_v0_apply, Read.val_main_call0_cst_apply,
    feature_of_mean1, feature_of_scale1, feature_of_gamma1, feature_of_beta1]
  generalize Read.val_main_v48 (F := Ideal) x0 x1 x2 x3 x4 = h
  generalize Read.val_main_v51 (F := Ideal) x0 x1 x2 x3 x4 = μ
  generalize Read.val_main_v58 (F := Ideal) x0 x1 x2 x3 x4 = v
  simp only [Ideal.maximumf_def, Ideal.addf_def, Ideal.mulf_def, Ideal.subf_def, Ideal.hostUnary_rsqrt_def,
    Ideal.ofBits_def]
  exact bnRelu_entry h μ v x5 x6 i

/-- The reference's second normalisation stage is `bnResRelu` of the second convolution's output, its column means
    and column variances, the second scale and shift, and the block's input as the residual. -/
theorem norm2 (x0 : (⟨S50000x64, .f32⟩ : BufTy).Contents (Elt Ideal)) (x1 : (⟨S2x800000, .i32⟩ : BufTy).Contents (Elt Ideal)) (x2 : (⟨S800000, .f32⟩ : BufTy).Contents (Elt Ideal)) (x3 : (⟨S64x64, .f32⟩ : BufTy).Contents (Elt Ideal)) (x4 x5 x6 : (⟨S64, .f32⟩ : BufTy).Contents (Elt Ideal)) (x7 : (⟨S64x64, .f32⟩ : BufTy).Contents (Elt Ideal)) (x8 x9 x10 : (⟨S64, .f32⟩ : BufTy).Contents (Elt Ideal)) :
    Read.val_main_v146 (F := Ideal) x0 x1 x2 x3 x4 x5 x6 x7 x8 x9 x10
      = Cert.GcnSpec.bnResRelu (Read.val_main_v119 (F := Ideal) x0 x1 x2 x3 x4 x5 x6 x7 x8) (Read.val_main_v122 (F := Ideal) x0 x1 x2 x3 x4 x5 x6 x7 x8) (Read.val_main_v129 (F := Ideal) x0 x1 x2 x3 x4 x5 x6 x7 x8) x9 x10 x0 := by
  funext i
  rw [Read.val_main_v146_apply, Read.val_main_v145_apply, Read.val_main_v144_apply, Read.val_main_v141_apply,
    Read.val_main_v138_apply, Read.val_main_v132_apply, Read.val_main_v131_apply, Read.val_main_v130_apply,
    Read.val_main_v137_apply, Read.val_main_v136_apply, Read.val_main_v135_apply, Read.val_main_v134_apply,
    Read.val_main_v133_apply, Read.val_main_cst_27_apply,
    Read.val_main_v140_apply, Read.val_main_v139_apply, Read.val_main_v143_apply, Read.val_main_v142_apply,
    Read.val_main_call1_v0_apply, Read.val_main_call1_cst_apply,
    feature_of_mean2, feature_of_scale2, feature_of_gamma2, feature_of_beta2]
  generalize Read.val_main_v119 (F := Ideal) x0 x1 x2 x3 x4 x5 x6 x7 x8 = h
  generalize Read.val_main_v122 (F := Ideal) x0 x1 x2 x3 x4 x5 x6 x7 x8 = μ
  generalize Read.val_main_v129 (F := Ideal) x0 x1 x2 x3 x4 x5 x6 x7 x8 = v
  simp only [Ideal.maximumf_def, Ideal.addf_def, Ideal.mulf_def, Ideal.subf_def, Ideal.hostUnary_rsqrt_def,
    Ideal.ofBits_def]
  exact bnResRelu_entry h μ v x9 x10 x0 i

end Cert.ReferenceIdeal.RefNorm

end
-- ==== Proof.Stages.lean ====
/-
  The host side of the idealized kernel program, stretch by stretch, read as the reference's own stages.

  Both programs spell the graph part with the same host operations: the edge list split into sources and
  destinations, the weighted in-degree plus one (a scatter-add of the edge weights), its inverse square root
  gathered at both ends of every edge and multiplied by the weight, the hidden rows gathered at the sources,
  scaled and scatter-added at the destinations, the self-loop term h/deg, the bias, and the column mean and
  variance of the result. So every array a stretch leaves is the reference's stage of the same name applied to
  the launch contents of the arguments, once the arrays the row-blocked stages left are known: the dense
  products are the reference's contractions, and the two normalisations are its normalisations. The reference
  computes the degrees and the edge coefficients a second time for its second convolution; the kernel program
  reuses the first ones, and the two are the same terms of the same arguments.
-/
import proofs.«112059_j75505525064552_1_alg».proof.Proof.Gen.KernelIdeal.Frame
import proofs.«112059_j75505525064552_1_alg».proof.Proof.Gen.ReferenceIdeal.Read
import proofs.«112059_j75505525064552_1_alg».proof.Proof.Spec
import proofs.«112059_j75505525064552_1_alg».proof.Proof.LibRowCast
import proofs.«112059_j75505525064552_1_alg».proof.Proof.StageLin
import proofs.«112059_j75505525064552_1_alg».proof.Proof.StageNorm
import proofs.«112059_j75505525064552_1_alg».proof.Proof.RefNorm
import Idealize.ShloMosaic.Lib.StableHlo.Run

set_option maxRecDepth 16384
set_option maxHeartbeats 4000000

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- No operation of the three host stretches writes the buffer: one inequality of references per operation. -/
local macro "not_written" : tactic => `(tactic| (
  refine List.forall_iff_forall_mem.mp ?_
  simp only [hostOps0, hostOps1, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## A row of per-feature values, cast from the vector -/

/-- A per-feature vector cast to a row and read back as a vector is itself. -/
theorem row_cast (v : Cert.GcnSpec.SF.Idx → EReal) (h : Cert.GcnSpec.SF.ShapeCasts Cert.GcnSpec.SR) :
    Cert.GcnSpec.row (shapeCast Cert.GcnSpec.SR v h) = v := by
  funext j
  unfold Cert.GcnSpec.row
  rw [Idealize.ShloMosaic.RowCast.shapeCast_row_apply]
  exact congrArg v (ValueIdx.eq_ix1 j).symm

/-! ## Before the first dense product: the edge list, the degrees, the edge coefficients -/

/-- The sources of the edges. -/
theorem first_src : W1 m ρ c (Proc.devRef .tc main_v1) = val_main_v1 (F := Ideal) (m ((c : Thread nD τ).loc main_arg1)) := by
  show StableHlo.after hostOps0 (W0 m ρ c) (Proc.devRef .tc main_v1) = _
  after_results_simp
  rfl

/-- The destinations of the edges. -/
theorem first_dst : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- The weighted in-degree plus one. -/
theorem first_deg : W1 m ρ c (Proc.devRef .tc main_v8) = val_main_v8 (F := Ideal) (m ((c : Thread nD τ).loc main_arg1)) (m ((c : Thread nD τ).loc main_arg2)) := by
  show StableHlo.after hostOps0 (W0 m ρ c) (Proc.devRef .tc main_v8) = _
  after_results_simp
  rfl

/-- The edge coefficients deg(src)^(-1/2) · w · deg(dst)^(-1/2). -/
theorem first_coef : W1 m ρ c (Proc.devRef .tc main_v25) = val_main_v25 (F := Ideal) (m ((c : Thread nD τ).loc main_arg1)) (m ((c : Thread nD τ).loc main_arg2)) := by
  show StableHlo.after hostOps0 (W0 m ρ c) (Proc.devRef .tc main_v25) = _
  after_results_simp
  rfl

/-- An argument array is as launched after the first stretch. -/
theorem first_arg (b : Ref sig .tc)
    (h : ∀ op ∈ (hostOps0 : List (HloOp τ sig (Elt Ideal))), Proc.devRef .tc b ∉ op.writes) :
    W1 m ρ c (Proc.devRef .tc b) = m ((c : Thread nD τ).loc b) :=
  StableHlo.after_of_forall_not_mem (b := Proc.devRef .tc b) _ _ h

/-! ## Carrying a buffer that nothing in between writes -/

/-- Across the first dense product. -/
theorem to2 (b : Ref sig .tc) (h0 : ∀ w, Pipeline.arrRef spec0 w ≠ b) :
    W2 m ρ c (Proc.devRef .tc b) = W1 m ρ c (Proc.devRef .tc b) := W2_of_ne m ρ c b h0

/-- Across the second stretch as well. -/
theorem to3 (b : Ref sig .tc) (h0 : ∀ w, Pipeline.arrRef spec0 w ≠ b)
    (h1 : ∀ op ∈ (hostOps1 : List (HloOp τ sig (Elt Ideal))), Proc.devRef .tc b ∉ op.writes) :
    W3 m ρ c (Proc.devRef .tc b) = W1 m ρ c (Proc.devRef .tc b) :=
  (StableHlo.after_of_forall_not_mem (b := Proc.devRef .tc b) _ _ h1).trans (to2 m ρ c b h0)

/-- Across the first normalisation as well. -/
theorem to4 (b : Ref sig .tc) (h0 : ∀ w, Pipeline.arrRef spec0 w ≠ b)
    (h1 : ∀ op ∈ (hostOps1 : List (HloOp τ sig (Elt Ideal))), Proc.devRef .tc b ∉ op.writes)
    (h2 : ∀ w, Pipeline.arrRef spec1 w ≠ b) :
    W4 m ρ c (Proc.devRef .tc b) = W1 m ρ c (Proc.devRef .tc b) :=
  (W4_of_ne m ρ c b h2).trans (to3 m ρ c b h0 h1)

/-- Across the second dense product as well. -/
theorem to5 (b : Ref sig .tc) (h0 : ∀ w, Pipeline.arrRef spec0 w ≠ b)
    (h1 : ∀ op ∈ (hostOps1 : List (HloOp τ sig (Elt Ideal))), Proc.devRef .tc b ∉ op.writes)
    (h2 : ∀ w, Pipeline.arrRef spec1 w ≠ b) (h3 : ∀ w, Pipeline.arrRef spec2 w ≠ b) :
    W5 m ρ c (Proc.devRef .tc b) = W1 m ρ c (Proc.devRef .tc b) :=
  (W5_of_ne m ρ c b h3).trans (to4 m ρ c b h0 h1 h2)

/-! ## The first dense product -/

/-- The first hidden array is the reference's contraction of the features with the first weight matrix. -/
theorem hidden1 : W2 m ρ c (Proc.devRef .tc main_v26) = val_main_v26 (F := Ideal) (m ((c : Thread nD τ).loc main_arg0)) (m ((c : Thread nD τ).loc main_arg3)) := by
  refine (W2_arr m ρ c 2).trans ((Cert.KernelIdeal.StageLin.arr0 (V1 m ρ) c).trans ?_)
  rw [show V1 m ρ c main_arg0 = (m ((c : Thread nD τ).loc main_arg0)) from first_arg m ρ c main_arg0 (by not_written),
    show V1 m ρ c main_arg3 = (m ((c : Thread nD τ).loc main_arg3)) from first_arg m ρ c main_arg3 (by not_written)]

/-! ## The second stretch: the first graph convolution and its column statistics -/

/-- What the second stretch reads of the first: the edge coefficients … -/
theorem in2_coef : W2 m ρ c (Proc.devRef .tc main_v25) = val_main_v25 (F := Ideal) (m ((c : Thread nD τ).loc main_arg1)) (m ((c : Thread nD τ).loc main_arg2)) :=
  (to2 m ρ c main_v25 (by decide)).trans (first_coef m ρ c)
/-- … the sources … -/
theorem in2_src : W2 m ρ c (Proc.devRef .tc main_v1) = val_main_v1 (F := Ideal) (m ((c : Thread nD τ).loc main_arg1)) :=
  (to2 m ρ c main_v1 (by decide)).trans (first_src m ρ c)
/-- … the destinations … -/
theorem in2_dst : W2 m ρ c (Proc.devRef .tc main_v3) = val_main_v3 (F := Ideal) (m ((c : Thread nD τ).loc main_arg1)) :=
  (to2 m ρ c main_v3 (by decide)).trans (first_dst m ρ c)
/-- … the degrees … -/
theorem in2_deg : W2 m ρ c (Proc.devRef .tc main_v8) = val_main_v8 (F := Ideal) (m ((c : Thread nD τ).loc main_arg1)) (m ((c : Thread nD τ).loc main_arg2)) :=
  (to2 m ρ c main_v8 (by decide)).trans (first_deg m ρ c)
/-- … and the first bias, scale and shift as launched. -/
theorem in2_arg4 : W2 m ρ c (Proc.devRef .tc main_arg4) = (m ((c : Thread nD τ).loc main_arg4)) :=
  (to2 m ρ c main_arg4 (by decide)).trans (first_arg m ρ c main_arg4 (by not_written))
theorem in2_arg5 : W2 m ρ c (Proc.devRef .tc main_arg5) = (m ((c : Thread nD τ).loc main_arg5)) :=
  (to2 m ρ c main_arg5 (by decide)).trans (first_arg m ρ c main_arg5 (by not_written))
theorem in2_arg6 : W2 m ρ c (Proc.devRef .tc main_arg6) = (m ((c : Thread nD τ).loc main_arg6)) :=
  (to2 m ρ c main_arg6 (by decide)).trans (first_arg m ρ c main_arg6 (by not_written))

/-- The first convolution's output: scatter-added messages, the self-loop term and the bias. -/
theorem conv1 : W3 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v48) = _
  after_results_simp
  rw [hidden1 m ρ c, in2_coef m ρ c, in2_src m ρ c, in2_dst m ρ c, in2_deg m ρ c, in2_arg4 m ρ c]
  rfl

/-- Its column means, as a row. -/
theorem mean1 : W3 m ρ c (Proc.devRef .tc main_v59)
    = shapeCast S1x64 (val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S64_S1x64 := by
  show StableHlo.after hostOps1 (W2 m ρ c) (Proc.devRef .tc main_v59) = _
  after_results_simp
  rw [hidden1 m ρ c, in2_coef m ρ c, in2_src m ρ c, in2_dst m ρ c, in2_deg m ρ c, in2_arg4 m ρ c]
  rfl

/-- Its column variances, as a row. -/
theorem var1 : W3 m ρ c (Proc.devRef .tc main_v60)
    = shapeCast S1x64 (val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S64_S1x64 := by
  show StableHlo.after hostOps1 (W2 m ρ c) (Proc.devRef .tc main_v60) = _
  after_results_simp
  rw [hidden1 m ρ c, in2_coef m ρ c, in2_src m ρ c, in2_dst m ρ c, in2_deg m ρ c, in2_arg4 m ρ c]
  rfl

/-- The first scale, as a row. -/
theorem gamma1 : W3 m ρ c (Proc.devRef .tc main_v61) = shapeCast S1x64 (m ((c : Thread nD τ).loc main_arg5)) shapeCasts_S64_S1x64 := by
  show StableHlo.after hostOps1 (W2 m ρ c) (Proc.devRef .tc main_v61) = _
  after_results_simp
  rw [in2_arg5 m ρ c]
  rfl

/-- The first shift, as a row. -/
theorem beta1 : W3 m ρ c (Proc.devRef .tc main_v62) = shapeCast S1x64 (m ((c : Thread nD τ).loc main_arg6)) shapeCasts_S64_S1x64 := by
  show StableHlo.after hostOps1 (W2 m ρ c) (Proc.devRef .tc main_v62) = _
  after_results_simp
  rw [in2_arg6 m ρ c]
  rfl

/-! ## The first normalisation and rectifier -/

/-- The activated first layer is the reference's. -/
theorem act1 : W4 m ρ c (Proc.devRef .tc main_v63) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ((Cert.KernelIdeal.StageNorm.arr1 (V3 m ρ) c).trans ?_)
  rw [show V3 m ρ c main_v48 = _ from conv1 m ρ c, show V3 m ρ c main_v59 = _ from mean1 m ρ c,
    show V3 m ρ c main_v60 = _ from var1 m ρ c, show V3 m ρ c main_v61 = _ from gamma1 m ρ c,
    show V3 m ρ c main_v62 = _ from beta1 m ρ c, row_cast, row_cast, row_cast, row_cast]
  exact (Cert.ReferenceIdeal.RefNorm.norm1 _ _ _ _ _ _ _).symm

/-! ## The second dense product -/

/-- The second hidden array is the reference's contraction of the activated first layer with the second weight matrix. -/
theorem hidden2 : W5 m ρ c (Proc.devRef .tc main_v64) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W5_arr m ρ c 2).trans ((Cert.KernelIdeal.StageLin.arr2 (V4 m ρ) c).trans ?_)
  rw [show V4 m ρ c main_v63 = _ from act1 m ρ c,
    show V4 m ρ c main_arg7 = (m ((c : Thread nD τ).loc main_arg7)) from
      (to4 m ρ c main_arg7 (by decide) (by not_written) (by decide)).trans (first_arg m ρ c main_arg7 (by not_written))]
  rfl

/-! ## The third stretch: the second graph convolution and its column statistics -/

/-- The reference recomputes the degrees for its second convolution: the same term of the same arguments. -/
theorem deg_again (x1 : (⟨Cert.ReferenceIdeal.S2x800000, .i32⟩ : BufTy).Contents (Elt Ideal)) (x2 : (⟨Cert.ReferenceIdeal.S800000, .f32⟩ : BufTy).Contents (Elt Ideal)) :
    val_main_v8 (F := Ideal) x1 x2 = val_main_v79 (F := Ideal) x1 x2 := rfl
/-- And the edge coefficients. -/
theorem coef_again (x1 : (⟨Cert.ReferenceIdeal.S2x800000, .i32⟩ : BufTy).Contents (Elt Ideal)) (x2 : (⟨Cert.ReferenceIdeal.S800000, .f32⟩ : BufTy).Contents (Elt Ideal)) :
    val_main_v25 (F := Ideal) x1 x2 = val_main_v96 (F := Ideal) x1 x2 := rfl

/-- What the third stretch reads of the first: the edge coefficients … -/
theorem in5_coef : W5 m ρ c (Proc.devRef .tc main_v25) = val_main_v96 (F := Ideal) (m ((c : Thread nD τ).loc main_arg1)) (m ((c : Thread nD τ).loc main_arg2)) :=
  ((to5 m ρ c main_v25 (by decide) (by not_written) (by decide) (by decide)).trans (first_coef m ρ c)).trans (coef_again _ _)
/-- … the sources … -/
theorem in5_src : W5 m ρ c (Proc.devRef .tc main_v1) = val_main_v1 (F := Ideal) (m ((c : Thread nD τ).loc main_arg1)) :=
  (to5 m ρ c main_v1 (by decide) (by not_written) (by decide) (by decide)).trans (first_src m ρ c)
/-- … the destinations … -/
theorem in5_dst : W5 m ρ c (Proc.devRef .tc main_v3) = val_main_v3 (F := Ideal) (m ((c : Thread nD τ).loc main_arg1)) :=
  (to5 m ρ c main_v3 (by decide) (by not_written) (by decide) (by decide)).trans (first_dst m ρ c)
/-- … the degrees … -/
theorem in5_deg : W5 m ρ c (Proc.devRef .tc main_v8) = val_main_v79 (F := Ideal) (m ((c : Thread nD τ).loc main_arg1)) (m ((c : Thread nD τ).loc main_arg2)) :=
  ((to5 m ρ c main_v8 (by decide) (by not_written) (by decide) (by decide)).trans (first_deg m ρ c)).trans (deg_again _ _)
/-- … and the second bias, scale and shift as launched. -/
theorem in5_arg8 : W5 m ρ c (Proc.devRef .tc main_arg8) = (m ((c : Thread nD τ).loc main_arg8)) :=
  (to5 m ρ c main_arg8 (by decide) (by not_written) (by decide) (by decide)).trans (first_arg m ρ c main_arg8 (by not_written))
theorem in5_arg9 : W5 m ρ c (Proc.devRef .tc main_arg9) = (m ((c : Thread nD τ).loc main_arg9)) :=
  (to5 m ρ c main_arg9 (by decide) (by not_written) (by decide) (by decide)).trans (first_arg m ρ c main_arg9 (by not_written))
theorem in5_arg10 : W5 m ρ c (Proc.devRef .tc main_arg10) = (m ((c : Thread nD τ).loc main_arg10)) :=
  (to5 m ρ c main_arg10 (by decide) (by not_written) (by decide) (by decide)).trans (first_arg m ρ c main_arg10 (by not_written))

/-- The second convolution's output. -/
theorem conv2 : W6 m ρ c (Proc.devRef .tc main_v86) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W5 m ρ c) (Proc.devRef .tc main_v86) = _
  after_results_simp
  rw [hidden2 m ρ c, in5_coef m ρ c, in5_src m ρ c, in5_dst m ρ c, in5_deg m ρ c, in5_arg8 m ρ c]
  rfl

/-- Its column means, as a row. -/
theorem mean2 : W6 m ρ c (Proc.devRef .tc main_v97)
    = shapeCast S1x64 (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S64_S1x64 := by
  show StableHlo.after hostOps3 (W5 m ρ c) (Proc.devRef .tc main_v97) = _
  after_results_simp
  rw [hidden2 m ρ c, in5_coef m ρ c, in5_src m ρ c, in5_dst m ρ c, in5_deg m ρ c, in5_arg8 m ρ c]
  rfl

/-- Its column variances, as a row. -/
theorem var2 : W6 m ρ c (Proc.devRef .tc main_v98)
    = shapeCast S1x64 (val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S64_S1x64 := by
  show StableHlo.after hostOps3 (W5 m ρ c) (Proc.devRef .tc main_v98) = _
  after_results_simp
  rw [hidden2 m ρ c, in5_coef m ρ c, in5_src m ρ c, in5_dst m ρ c, in5_deg m ρ c, in5_arg8 m ρ c]
  rfl

/-- The second scale, as a row. -/
theorem gamma2 : W6 m ρ c (Proc.devRef .tc main_v99) = shapeCast S1x64 (m ((c : Thread nD τ).loc main_arg9)) shapeCasts_S64_S1x64 := by
  show StableHlo.after hostOps3 (W5 m ρ c) (Proc.devRef .tc main_v99) = _
  after_results_simp
  rw [in5_arg9 m ρ c]
  rfl

/-- The second shift, as a row. -/
theorem beta2 : W6 m ρ c (Proc.devRef .tc main_v100) = shapeCast S1x64 (m ((c : Thread nD τ).loc main_arg10)) shapeCasts_S64_S1x64 := by
  show StableHlo.after hostOps3 (W5 m ρ c) (Proc.devRef .tc main_v100) = _
  after_results_simp
  rw [in5_arg10 m ρ c]
  rfl

/-! ## The second normalisation, the residual and the rectifier: the result -/

/-- The input features are still as launched when the last stage is entered: the last stage only reads them, and
    after it they are as launched. -/
theorem input_at_last : W6 m ρ c (Proc.devRef .tc main_arg0) = (m ((c : Thread nD τ).loc main_arg0)) :=
  ((W7_arr m ρ c 5).trans (((dat3 (V6 m ρ) c).arrAt_in 5 rfl _).trans (A_eq3 (V6 m ρ) c 5))).symm.trans
    (W7_main_arg0 m ρ c)

/-- The result array is the reference's result, as a function of the launch contents of the arguments. -/
theorem result : W7 m ρ c (Proc.devRef .tc main_v101) = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W7_arr m ρ c 6).trans ((Cert.KernelIdeal.StageNorm.arr3 (V6 m ρ) c).trans ?_)
  rw [show V6 m ρ c main_v86 = _ from conv2 m ρ c, show V6 m ρ c main_v97 = _ from mean2 m ρ c,
    show V6 m ρ c main_v98 = _ from var2 m ρ c, show V6 m ρ c main_v99 = _ from gamma2 m ρ c,
    show V6 m ρ c main_v100 = _ from beta2 m ρ c,
    show V6 m ρ c main_arg0 = (m ((c : Thread nD τ).loc main_arg0)) from input_at_last m ρ c,
    row_cast, row_cast, row_cast, row_cast]
  exact (Cert.ReferenceIdeal.RefNorm.norm2 _ _ _ _ _ _ _ _ _ _ _).symm

end Cert.KernelIdeal.Stages

end
-- ==== Proof.lean ====
/-
  A residual block of two graph convolutions with batch normalisation, as a Pallas kernel program against
  plain jnp: the kernel program computes the two dense products x·W and the two normalise-scale-shift-rectify
  maps in blocks of 5000 rows on the TensorCore and leaves the gather / scatter-add over the edges, the
  degrees and the column statistics to the host; the reference does everything on the host.

  At the ideal instance the two are one function of the arguments. A dense product computed block by block on
  the matrix unit, from operands rounded to a narrower format (the identity on extended reals) into a zero
  accumulator, is the host's contraction row by row; the normalisation computed block by block from the
  statistics laid out as rows is the host's broadcasted normalisation entry by entry; and every host stretch of
  the kernel program is, operation for operation, the reference's. No algebraic law beyond these readings is
  needed, so finiteness of the inputs is never used.
-/
import proofs.«112059_j75505525064552_1_alg».proof.Defs
import proofs.«112059_j75505525064552_1_alg».proof.Proof.Gen.Kernel
import proofs.«112059_j75505525064552_1_alg».proof.Proof.Gen.Kernel.Skeleton
import proofs.«112059_j75505525064552_1_alg».proof.Proof.Gen.Kernel.Launch
import proofs.«112059_j75505525064552_1_alg».proof.Proof.Gen.Kernel.Points
import proofs.«112059_j75505525064552_1_alg».proof.Proof.Gen.Kernel.Frame
import proofs.«112059_j75505525064552_1_alg».proof.Proof.Gen.KernelIdeal
import proofs.«112059_j75505525064552_1_alg».proof.Proof.Gen.KernelIdeal.Skeleton
import proofs.«112059_j75505525064552_1_alg».proof.Proof.Gen.KernelIdeal.Launch
import proofs.«112059_j75505525064552_1_alg».proof.Proof.Gen.KernelIdeal.Points
import proofs.«112059_j75505525064552_1_alg».proof.Proof.Gen.KernelIdeal.Frame
import proofs.«112059_j75505525064552_1_alg».proof.Proof.Gen.ReferenceIdeal
import proofs.«112059_j75505525064552_1_alg».proof.Proof.Gen.Pre_finite_inputs
import proofs.«112059_j75505525064552_1_alg».proof.Proof.Gen.ReferenceIdeal.Read
import proofs.«112059_j75505525064552_1_alg».proof.Proof.WholeRun
import proofs.«112059_j75505525064552_1_alg».proof.Proof.Stages
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- And the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the reference's result stage of the launch contents of the arguments:
    the kernel program by the fold of its stretches and row-blocked stages, the reference by its own run. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v146 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Stages.result m ρ c), (h c).2⟩)
      (Cert.KernelIdeal.WholeRun.run m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10⟩ := hagree c
    rw [(h c).1, Cert.ReferenceIdeal.Read.val_main_v146_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
